-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S10000x128 : Shape := ⟨2, ![10000, 128]⟩

abbrev nBuf : Space → Nat
  | .hbm => 39
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S128x128, .f32⟩
  | .hbm, ⟨21, _⟩ => ⟨S1x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x128, .f32⟩
  | .hbm, ⟨37, _⟩ => ⟨S1x128, .f32⟩
  | .hbm, ⟨38, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S50000x128, .f32⟩
  | .hbm, ⟨18, _⟩ => ⟨S800000x1, .i32⟩
  | .hbm, ⟨19, _⟩ => ⟨S50000x128, .f32⟩
  | .hbm, ⟨20, _⟩ => ⟨S128x128, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_cst : Ref sig .tc := ⟨.hbm, 25, rfl⟩
abbrev main_call0_v0 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run with its result named.

  The program is two stretches of host operations, each followed by one launch of the dense kernel. Its buffers'
  contents at the four boundaries are a fold from the launch memory: `W1` after the first stretch, `W2` after the first
  launch, `W3` after the second stretch, `W4` after the second launch. Every weakly fair execution terminates without a
  fault in a state whose unscoped buffers hold `W4`; read at the seven arguments this says they end unchanged, and read
  at the result buffer it names the result as `W4` there, which is what the value of the program is read from.
-/
import proofs.«115094_j75058848465162_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the seven arguments as launched: the launch over the four segments, the last thread state
    read against the final state at the result and at each argument. -/
theorem run_result : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Result

end
-- ==== Proof.LibDense.lean ====
/-
  A dense layer on the extended reals, for any extents, and the one fact a blocked computation of it needs.

  A layer takes a matrix `h` of `n` rows and `K` columns, a `K` × `M` matrix `wt` and a bias row `b` (stored as a
  1 × `M` matrix) and returns the `n` × `M` matrix whose entry (p, q) is the dot product of row p of `h` with column q of
  `wt`, plus `b` at q. The rectifier keeps the larger of an entry and zero. Nothing here depends on a program: a block of
  rows and the whole array are the same definition at two values of `n`, and the fact that joins them is that an entry
  of a layer depends on one row of `h`, one column of `wt` and one entry of `b` (`lin_congr`) — so a block of rows of the
  layer of an array is the layer of the same block of rows of the array.
-/
import Idealize.ShloMosaic.Lib.ValueIdx
import Idealize.ShloMosaic.PureOps.Ideal

noncomputable section

open scoped BigOperators

namespace Cert.Dense

open Idealize.ShloMosaic Idealize.ShloMosaic.ValueIdx

/-- One dense layer `h · wt + b`: entry (p, q) is `∑ k, h (p, k) · wt (k, q) + b (0, q)`, for an `n` × `K` matrix `h`, a
    `K` × `M` matrix `wt` and a bias row `b` stored as a 1 × `M` matrix. -/
def lin {n K M : Nat} (h : (⟨2, ![n, K]⟩ : Shape).Idx → EReal) (wt : (⟨2, ![K, M]⟩ : Shape).Idx → EReal)
    (b : (⟨2, ![1, M]⟩ : Shape).Idx → EReal) : (⟨2, ![n, M]⟩ : Shape).Idx → EReal :=
  fun i => (∑ k : Fin K, h (ix2 (i 0) k) * wt (ix2 k (i 1))) + b (ix2 (0 : Fin 1) (i 1))

/-- The rectifier of a matrix, entry by entry: the larger of the entry and zero. -/
def relu {n M : Nat} (x : (⟨2, ![n, M]⟩ : Shape).Idx → EReal) : (⟨2, ![n, M]⟩ : Shape).Idx → EReal :=
  fun i => max (x i) 0

/-- The layer at explicit coordinates. -/
theorem lin_apply {n K M : Nat} (h : (⟨2, ![n, K]⟩ : Shape).Idx → EReal) (wt : (⟨2, ![K, M]⟩ : Shape).Idx → EReal)
    (b : (⟨2, ![1, M]⟩ : Shape).Idx → EReal) (p : Fin n) (q : Fin M) :
    lin h wt b (ix2 p q) = (∑ k : Fin K, h (ix2 p k) * wt (ix2 k q)) + b (ix2 (0 : Fin 1) q) := rfl

/-- The rectifier at an index. -/
theorem relu_apply {n M : Nat} (x : (⟨2, ![n, M]⟩ : Shape).Idx → EReal) (i : (⟨2, ![n, M]⟩ : Shape).Idx) :
    relu x i = max (x i) 0 := rfl

/-- An entry of a layer depends on one row of `h`, one column of `wt` and one entry of `b`: two layers, of matrices
    with any numbers of rows, agree at entries `i'` and `i` as soon as row `i' 0` of one input is row `i 0` of the other,
    column `i' 1` of one weight matrix is column `i 1` of the other, and the bias entries agree. (A block of rows of
    the output is the layer of the same block of rows of the input.) -/
theorem lin_congr {n n' K M : Nat} (h : (⟨2, ![n, K]⟩ : Shape).Idx → EReal) (wt : (⟨2, ![K, M]⟩ : Shape).Idx → EReal)
    (b : (⟨2, ![1, M]⟩ : Shape).Idx → EReal) (h' : (⟨2, ![n', K]⟩ : Shape).Idx → EReal)
    (wt' : (⟨2, ![K, M]⟩ : Shape).Idx → EReal) (b' : (⟨2, ![1, M]⟩ : Shape).Idx → EReal)
    (i : (⟨2, ![n, M]⟩ : Shape).Idx) (i' : (⟨2, ![n', M]⟩ : Shape).Idx)
    (hrow : ∀ k : Fin K, h' (ix2 (i' 0) k) = h (ix2 (i 0) k))
    (hcol : ∀ k : Fin K, wt' (ix2 k (i' 1)) = wt (ix2 k (i 1)))
    (hb : b' (ix2 (0 : Fin 1) (i' 1)) = b (ix2 (0 : Fin 1) (i 1))) :
    lin h' wt' b' i' = lin h wt b i := by
  unfold lin
  rw [hb]
  exact congrArg (· + b (ix2 (0 : Fin 1) (i 1))) (Finset.sum_congr rfl fun k _ => by rw [hrow k, hcol k])

end Cert.Dense

end
-- ==== Proof.Body.lean ====
/-
  What one grid point of either dense kernel computes, read entry by entry on the extended reals.

  A point holds a block of 10000 rows of the aggregated features, the whole 128 × 128 weight matrix (already transposed)
  and the bias row. The body multiplies the block by the matrix into a zero accumulator, adds the bias row to every row
  and, in the first kernel only, keeps the larger of each entry and zero. On the extended reals the two changes of float
  format are the identity, a product into a zero accumulator at entry (p, q) is the sum over k of block (p, k) times
  matrix (k, q), and the bias row broadcast over the rows reads the row's entry q. So the body's result is the dense
  layer `Cert.Dense.lin` of the block (and its rectification in the first kernel), as one function of the three loads.
-/
import proofs.«115094_j75058848465162_1_alg».proof.Proof.Gen.KernelIdeal.Skeleton
import proofs.«115094_j75058848465162_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Dense

/-! ## The product's operand indices, coordinate by coordinate -/

theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's product into a zero accumulator, at entry (p, q): the sum over the 128 contracted positions of
    left (p, k) times right (k, q). -/
theorem matmul_zero_apply (l : FVec Ideal S10000x128 .bf16) (r : FVec Ideal S128x128 .bf16) (p : Fin 10000) (q : Fin 128) :
    matmul dot_S10000x128_S128x128_S10000x128_1_0_0_1_n_n none l r (constant (F := Ideal) S10000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The two bodies -/

/-- The second kernel's body (no rectifier) is the dense layer of its three loads. -/
theorem pay_lin (x0 : Vec Ideal S10000x128 .f32) (x1 : Vec Ideal S128x128 .f32) (x2 : Vec Ideal S1x128 .f32) :
    k1_pay1 (F := Ideal) x0 x1 x2 = lin x0 x1 x2 := by
  funext j
  obtain ⟨p, q, rfl⟩ : ∃ (p : Fin 10000) (q : Fin 128), j = ix2 p q := ⟨j 0, j 1, eq_ix2 j⟩
  unfold k1_pay1
  rw [lin_apply, addf_apply, matmul_zero_apply, shapeCast_self, shapeCast_self, shapeCast_self, broadcastTo_1b_ab_apply]
  rfl

/-- The first kernel's body is the rectified dense layer of its three loads. -/
theorem pay_relu_lin (x0 : Vec Ideal S10000x128 .f32) (x1 : Vec Ideal S128x128 .f32) (x2 : Vec Ideal S1x128 .f32) :
    k0_pay1 (F := Ideal) x0 x1 x2 = relu (lin x0 x1 x2) := by
  funext j
  obtain ⟨p, q, rfl⟩ : ∃ (p : Fin 10000) (q : Fin 128), j = ix2 p q := ⟨j 0, j 1, eq_ix2 j⟩
  unfold k0_pay1
  show max _ (Ideal.ofBits .f32 0x00000000#32) = max _ 0
  rw [lin_apply, addf_apply, matmul_zero_apply, shapeCast_self, shapeCast_self, shapeCast_self, broadcastTo_1b_ab_apply,
    Ideal.ofBits_zero_f32]
  rfl

end Cert.KernelIdeal.Body

end
-- ==== Proof.Blocks.lean ====
/-
  From blocks to arrays: what each launch of the dense kernel leaves in its output array, as one function of the arrays
  it reads.

  A launch runs the body at five grid points. Point `t` reads rows 10000·t … 10000·t + 9999 of the aggregated features,
  the whole weight matrix and the whole bias row, and writes back rows 10000·t … 10000·t + 9999 of the output. Since an
  entry of a dense layer depends only on its own row of the input (`Cert.Dense.lin_congr`), what point `t` writes is block
  `t` of the layer of the WHOLE input array; the five blocks tile the 50000 rows, so after the launch the output array is
  that layer — rectified in the first launch. Everything is stated at an arbitrary valuation `V` of the buffers at the
  launch's entry, so that the same lemma serves whatever the host operations before the launch left there.
-/
import proofs.«115094_j75058848465162_1_alg».proof.Proof.Gen.KernelIdeal.Frame
import proofs.«115094_j75058848465162_1_alg».proof.Proof.Body
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The first launch -/

/-- The printed index maps over the five grid points: the input block and the output block are block `t` of their
    arrays' rows, the weight matrix and the bias row are whole at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 5 :=
  (by decide +kernel : ∀ t : Fin grid0.N, _)

/-- What point `t` writes back is block `t` of the rectified layer of the three arrays as the launch finds them: the
    body's result is the rectified layer of its loads, row p of the input block is row 10000·t + p of the array, and the
    weight and bias blocks are the whole arrays. -/
theorem flushed0_eq (c : Dev nD) (t : Fin cfg0.N) :
    (dat0 V c).flushed 3 t = ((cfg0.win 3).blk t).view.read (Elt Ideal) (relu (lin (V c main_v9) (V c main_v10) (V c main_v11))) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S1x128) hz]
  rw [Body.pay_relu_lin]
  obtain ⟨e0, e1, e2, e3, e4, e5, e6, e7, e8⟩ := idx_facts0 t
  funext y
  show relu (lin (iblk0 V c 0 t) (iblk0 V c 1 t) (iblk0 V c 2 t)) y
    = relu (lin (V c main_v9) (V c main_v10) (V c main_v11)) (((cfg0.win 3).blk t).view.emb y)
  rw [relu_apply, relu_apply]
  refine congrArg (fun z => max z 0) ?_
  refine lin_congr (V c main_v9) (V c main_v10) (V c main_v11) (iblk0 V c 0 t) (iblk0 V c 1 t) (iblk0 V c 2 t)
    (((cfg0.win 3).blk t).view.emb y) y ?_ ?_ ?_
  · intro k
    show V c main_v9 (((cfg0.win 0).blk t).view.emb (ix2 (y 0) k)) = V c main_v9 (ix2 ((((cfg0.win 3).blk t).view.emb y) 0) k)
    have e : ((cfg0.win 0).blk t).view.emb (ix2 (y 0) k) = ix2 ((((cfg0.win 3).blk t).view.emb y) 0) k := by
      funext a; apply Fin.ext
      match a with
      | ⟨0, _⟩ => show win0_0.index t (0 : Fin 2) * 10000 + 1 * (y 0).val = win0_3.index t (0 : Fin 2) * 10000 + 1 * (y 0).val; omega
      | ⟨1, _⟩ => show win0_0.index t (1 : Fin 2) * 128 + 1 * k.val = k.val; omega
    exact congrArg (V c main_v9) e
  · intro k
    show V c main_v10 (((cfg0.win 1).blk t).view.emb (ix2 k (y 1))) = V c main_v10 (ix2 k ((((cfg0.win 3).blk t).view.emb y) 1))
    have e : ((cfg0.win 1).blk t).view.emb (ix2 k (y 1)) = ix2 k ((((cfg0.win 3).blk t).view.emb y) 1) := by
      funext a; apply Fin.ext
      match a with
      | ⟨0, _⟩ => show win0_1.index t (0 : Fin 2) * 128 + 1 * k.val = k.val; omega
      | ⟨1, _⟩ => show win0_1.index t (1 : Fin 2) * 128 + 1 * (y 1).val = win0_3.index t (1 : Fin 2) * 128 + 1 * (y 1).val; omega
    exact congrArg (V c main_v10) e
  · show V c main_v11 (((cfg0.win 2).blk t).view.emb (ix2 (0 : Fin 1) (y 1))) = V c main_v11 (ix2 (0 : Fin 1) ((((cfg0.win 3).blk t).view.emb y) 1))
    have e : ((cfg0.win 2).blk t).view.emb (ix2 (0 : Fin 1) (y 1)) = ix2 (0 : Fin 1) ((((cfg0.win 3).blk t).view.emb y) 1) := by
      funext a; apply Fin.ext
      match a with
      | ⟨0, _⟩ => show win0_2.index t (0 : Fin 2) * 1 + 1 * 0 = 0; omega
      | ⟨1, _⟩ => show win0_2.index t (1 : Fin 2) * 128 + 1 * (y 1).val = win0_3.index t (1 : Fin 2) * 128 + 1 * (y 1).val; omega
    exact congrArg (V c main_v11) e

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v12).slice (win0_3.rect t)).set ↔ _
  rw [View.set_slice_whole, Rect.mem_set_unit]
  exact Iff.rfl

/-- The five blocks of 10000 rows tile the 50000 rows: row r is in the block of point r / 10000. -/
theorem cover0 (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  let t : Fin grid0.N := ⟨(i 0).val / 10000, by rw [N_0]; omega⟩
  have ht : t.val = (i 0).val / 10000 := rfl
  obtain ⟨e0, e1, e2, e3, e4, e5, e6, e7, e8⟩ := idx_facts0 t
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The output array after the launch is the rectified layer of the three input arrays as the launch finds them. -/
theorem final0 (c : Dev nD) :
    (dat0 V c).arrAt 3 cfg0.N = relu (lin (V c main_v9) (V c main_v10) (V c main_v11)) :=
  (dat0 V c).arrAt_eq_of_cover 3 _ (fun t _ => flushed0_eq V c t) cover0

/-! ## The second launch -/

/-- The printed index maps over the five grid points: the input block and the output block are block `t` of their
    arrays' rows, the weight matrix and the bias row are whole at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 5 :=
  (by decide +kernel : ∀ t : Fin grid1.N, _)

/-- What point `t` writes back is block `t` of the layer of the three arrays as the launch finds them: the
    body's result is the layer of its loads, row p of the input block is row 10000·t + p of the array, and the
    weight and bias blocks are the whole arrays. -/
theorem flushed1_eq (c : Dev nD) (t : Fin cfg1.N) :
    (dat1 V c).flushed 3 t = ((cfg1.win 3).blk t).view.read (Elt Ideal) (lin (V c main_v22) (V c main_v23) (V c main_v24)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  rw [Body.pay_lin]
  obtain ⟨e0, e1, e2, e3, e4, e5, e6, e7, e8⟩ := idx_facts1 t
  funext y
  show lin (iblk1 V c 0 t) (iblk1 V c 1 t) (iblk1 V c 2 t) y
    = lin (V c main_v22) (V c main_v23) (V c main_v24) (((cfg1.win 3).blk t).view.emb y)
  refine lin_congr (V c main_v22) (V c main_v23) (V c main_v24) (iblk1 V c 0 t) (iblk1 V c 1 t) (iblk1 V c 2 t)
    (((cfg1.win 3).blk t).view.emb y) y ?_ ?_ ?_
  · intro k
    show V c main_v22 (((cfg1.win 0).blk t).view.emb (ix2 (y 0) k)) = V c main_v22 (ix2 ((((cfg1.win 3).blk t).view.emb y) 0) k)
    have e : ((cfg1.win 0).blk t).view.emb (ix2 (y 0) k) = ix2 ((((cfg1.win 3).blk t).view.emb y) 0) k := by
      funext a; apply Fin.ext
      match a with
      | ⟨0, _⟩ => show win1_0.index t (0 : Fin 2) * 10000 + 1 * (y 0).val = win1_3.index t (0 : Fin 2) * 10000 + 1 * (y 0).val; omega
      | ⟨1, _⟩ => show win1_0.index t (1 : Fin 2) * 128 + 1 * k.val = k.val; omega
    exact congrArg (V c main_v22) e
  · intro k
    show V c main_v23 (((cfg1.win 1).blk t).view.emb (ix2 k (y 1))) = V c main_v23 (ix2 k ((((cfg1.win 3).blk t).view.emb y) 1))
    have e : ((cfg1.win 1).blk t).view.emb (ix2 k (y 1)) = ix2 k ((((cfg1.win 3).blk t).view.emb y) 1) := by
      funext a; apply Fin.ext
      match a with
      | ⟨0, _⟩ => show win1_1.index t (0 : Fin 2) * 128 + 1 * k.val = k.val; omega
      | ⟨1, _⟩ => show win1_1.index t (1 : Fin 2) * 128 + 1 * (y 1).val = win1_3.index t (1 : Fin 2) * 128 + 1 * (y 1).val; omega
    exact congrArg (V c main_v23) e
  · show V c main_v24 (((cfg1.win 2).blk t).view.emb (ix2 (0 : Fin 1) (y 1))) = V c main_v24 (ix2 (0 : Fin 1) ((((cfg1.win 3).blk t).view.emb y) 1))
    have e : ((cfg1.win 2).blk t).view.emb (ix2 (0 : Fin 1) (y 1)) = ix2 (0 : Fin 1) ((((cfg1.win 3).blk t).view.emb y) 1) := by
      funext a; apply Fin.ext
      match a with
      | ⟨0, _⟩ => show win1_2.index t (0 : Fin 2) * 1 + 1 * 0 = 0; omega
      | ⟨1, _⟩ => show win1_2.index t (1 : Fin 2) * 128 + 1 * (y 1).val = win1_3.index t (1 : Fin 2) * 128 + 1 * (y 1).val; omega
    exact congrArg (V c main_v24) e

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v25).slice (win1_3.rect t)).set ↔ _
  rw [View.set_slice_whole, Rect.mem_set_unit]
  exact Iff.rfl

/-- The five blocks of 10000 rows tile the 50000 rows: row r is in the block of point r / 10000. -/
theorem cover1 (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  let t : Fin grid1.N := ⟨(i 0).val / 10000, by rw [N_1]; omega⟩
  have ht : t.val = (i 0).val / 10000 := rfl
  obtain ⟨e0, e1, e2, e3, e4, e5, e6, e7, e8⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the launch is the layer of the three input arrays as the launch finds them. -/
theorem final1 (c : Dev nD) :
    (dat1 V c).arrAt 3 cfg1.N = lin (V c main_v22) (V c main_v23) (V c main_v24) :=
  (dat1 V c).arrAt_eq_of_cover 3 _ (fun t _ => flushed1_eq V c t) cover1

end Cert.KernelIdeal.Blocks

end
-- ==== Proof.HostSide.lean ====
/-
  What the host operations leave in the arrays each launch reads.

  Before each launch the program gathers the rows of a feature matrix named by the edge sources (a negative source
  counted from the end), sums the gathered rows into the rows named by the edge destinations starting from zero — the
  neighbour aggregation `agg` —, transposes a weight matrix and recasts a bias vector as a one-row matrix. The first
  stretch aggregates the input features; the second aggregates what the first launch wrote. No host operation and no
  launch writes an argument, so the edge lists, weights and biases the second stretch reads are the launch memory's.
-/
import proofs.«115094_j75058848465162_1_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The neighbour aggregation: row `r` of the result is the sum, over the edges whose destination is `r`, of the row
    of `x` the edge's source names. -/
def agg (x : FVec F S50000x128 .f32) (src dst : IVec S800000 32) :
    FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A weight matrix transposed. -/
def wT (w : FVec F S128x128 .f32) : FVec F S128x128 .f32 :=
  transpose S128x128 [1, 0] w transposes_S128x128_S128x128_1_0

/-- A bias vector as a one-row matrix. -/
def biasRow (b : FVec F S128 .f32) : FVec F S1x128 .f32 :=
  shapeCast S1x128 b shapeCasts_S128_S1x128

variable (m : (ℓ : Loc nD τ sig) → Buf (Elt F) ℓ) (ρ : Dev nD → PrngReg)

/-! ## The first launch's entry -/

theorem entry0_feat (c : Dev nD) :
    V1 m ρ c main_v9 = agg (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

theorem entry0_wT (c : Dev nD) : V1 m ρ c main_v10 = wT (m ((c : Thread nD τ).loc main_arg3)) := by
  show StableHlo.after hostOps0 (W0 m ρ c) (Proc.devRef .tc main_v10) = _
  after_results
  rfl

theorem entry0_bias (c : Dev nD) : V1 m ρ c main_v11 = biasRow (m ((c : Thread nD τ).loc main_arg4)) := by
  show StableHlo.after hostOps0 (W0 m ρ c) (Proc.devRef .tc main_v11) = _
  after_results
  rfl

/-! ## The arguments after the first launch: as launched -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The second launch's entry -/

theorem entry1_feat (c : Dev nD) :
    V3 m ρ c main_v22 = agg (W2 m ρ c (Proc.devRef .tc main_v12)) (m ((c : Thread nD τ).loc main_arg1)) (m ((c : Thread nD τ).loc main_arg2)) := by
  show StableHlo.after hostOps1 (W2 m ρ c) (Proc.devRef .tc main_v22) = _
  after_results
  rw [W2_main_arg1, W2_main_arg2]
  rfl

theorem entry1_wT (c : Dev nD) : V3 m ρ c main_v23 = wT (m ((c : Thread nD τ).loc main_arg5)) := by
  show StableHlo.after hostOps1 (W2 m ρ c) (Proc.devRef .tc main_v23) = _
  after_results
  rw [W2_main_arg5]
  rfl

theorem entry1_bias (c : Dev nD) : V3 m ρ c main_v24 = biasRow (m ((c : Thread nD τ).loc main_arg6)) := by
  show StableHlo.after hostOps1 (W2 m ρ c) (Proc.devRef .tc main_v24) = _
  after_results
  rw [W2_main_arg6]
  rfl

end Cert.KernelIdeal.HostSide

end
-- ==== Proof.KernelValue.lean ====
/-
  The idealized kernel program's result as a composition of dense layers.

  The result buffer after the run is what the second launch leaves in its output array: the dense layer of the arrays
  that launch reads. Those are the aggregate of the first launch's output, a transposed weight matrix and a bias row; the
  first launch's output is in turn the rectified layer of the aggregate of the input features. Substituting, the result
  is the layer of the aggregate of the rectified layer of the aggregate of the input, as one function of the seven
  argument arrays.
-/
import proofs.«115094_j75058848465162_1_alg».proof.Proof.KernelRun
import proofs.«115094_j75058848465162_1_alg».proof.Proof.Blocks
import proofs.«115094_j75058848465162_1_alg».proof.Proof.HostSide

set_option maxRecDepth 16384

noncomputable section

namespace Cert.KernelIdeal.Result

open Cert.KernelIdeal Cert.KernelIdeal.Gen Cert.KernelIdeal.HostSide Cert.Dense
open Idealize.ShloMosaic Idealize.ShloMosaic.TcCoe Idealize.SL.Sem

variable (m : (ℓ : Loc nD τ sig) → Buf (Elt Ideal) ℓ) (ρ : Dev nD → PrngReg)

/-- The program's value: two rounds of "aggregate over the edges, then a dense layer", rectified in between. -/
def value (a0 : FVec Ideal S50000x128 .f32) (a1 a2 : IVec S800000 32)
    (a3 : FVec Ideal S128x128 .f32) (a4 : FVec Ideal S128 .f32)
    (a5 : FVec Ideal S128x128 .f32) (a6 : FVec Ideal S128 .f32) :
    FVec Ideal S50000x128 .f32 :=
  lin (agg (F := Ideal) (relu (lin (agg (F := Ideal) a0 a1 a2) (wT (F := Ideal) a3) (biasRow (F := Ideal) a4))) a1 a2)
    (wT (F := Ideal) a5) (biasRow (F := Ideal) a6)

/-- The first launch's output array after it: the rectified layer of the aggregated input features. -/
theorem first_output (c : Dev nD) :
    W2 m ρ c (Proc.devRef .tc main_v12)
      = relu (lin (agg (F := Ideal) (m ((c.tc : Thread nD τ).loc main_arg0)) (m ((c.tc : Thread nD τ).loc main_arg1)) (m ((c.tc : Thread nD τ).loc main_arg2)))
          (wT (F := Ideal) (m ((c.tc : Thread nD τ).loc main_arg3))) (biasRow (F := Ideal) (m ((c.tc : Thread nD τ).loc main_arg4)))) := by
  have h := (W2_arr m ρ c 3).trans (Blocks.final0 (V1 m ρ) c)
  rw [entry0_feat, entry0_wT, entry0_bias] at h
  exact h

/-- The result buffer after the run, as a function of the argument arrays. -/
theorem last_output (c : Dev nD) :
    W4 m ρ c (Proc.devRef .tc main_v25)
      = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h := (W4_arr m ρ c 3).trans (Blocks.final1 (V3 m ρ) c)
  rw [entry1_feat, entry1_wT, entry1_bias, first_output] at h
  exact h

/-- Every weakly fair execution of the idealized kernel program terminates, nothing faulting, with the result at
    `value` of the argument arrays and the arguments unchanged. -/
theorem run : θ_run defs (onTc (τ := τ) (main (F := Ideal))) ⟨m, fun _ => 0, ρ⟩ (fun r => ∀ c : Dev nD,
      r.2.mem ((c.tc : Thread nD τ).loc main_v25) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (last_output m ρ c), (h c).2⟩) (run_result m ρ)

end Cert.KernelIdeal.Result

end
-- ==== Proof.RefValue.lean ====
/-
  The reference's result as a composition of dense layers.

  The reference aggregates the input features over the edges, applies one dense layer written as a host matrix product
  plus the bias broadcast over the rows, rectifies, aggregates again and applies a second dense layer. On the extended
  reals the host's matrix product at entry (p, q) is the sum over k of left (p, k) times right (k, q), the bias vector
  broadcast first to one row and then over all rows reads its entry q, and the maximum with the zero constant is the
  rectifier. So its result is the layer of the aggregate of the rectified layer of the aggregate of the input — the same
  two functions `Cert.Dense.lin` and `Cert.Dense.relu` the kernel's launches compute.
-/
import proofs.«115094_j75058848465162_1_alg».proof.Proof.Gen.ReferenceIdeal.Run
import proofs.«115094_j75058848465162_1_alg».proof.Proof.Gen.ReferenceIdeal.Read
import proofs.«115094_j75058848465162_1_alg».proof.Proof.LibDense
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Cert.Dense

/-! ## The reference's operations, named -/

/-- The neighbour aggregation: row `r` of the result is the sum, over the edges whose destination is `r`, of the row
    of `x` the edge's source names. -/
def agg {F : FTy → Type} [FloatOps F] (x : FVec F S50000x128 .f32) (src dst : IVec S800000 32) :
    FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A weight matrix transposed. -/
def wT {F : FTy → Type} [FloatOps F] (w : FVec F S128x128 .f32) : FVec F S128x128 .f32 :=
  transpose S128x128 [1, 0] w transposes_S128x128_S128x128_1_0

/-- A bias vector as a one-row matrix. -/
def biasRow {F : FTy → Type} [FloatOps F] (b : FVec F S128 .f32) : FVec F S1x128 .f32 :=
  broadcastInDim S1x128 ![1] bcast_S128_S1x128_1 b

/-! ## One layer, at an entry -/

/-- The host's matrix product at entry (p, q): the sum over the 128 contracted positions of left (p, k) times
    right (k, q). -/
theorem dot_apply (l : FVec Ideal S50000x128 .f32) (r : FVec Ideal S128x128 .f32) (p : Fin 50000) (q : Fin 128) :
    Host.dotGeneral dot_S50000x128_S128x128_S50000x128_1_0_0_1_n_n none l r (ix2 p q) = ∑ k : Fin 128, l (ix2 p k) * r (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 p q) ((ValueIdx.contrEquiv1 dot_S50000x128_S128x128_S50000x128_1_0_0_1_n_n 128 rfl rfl).symm k) = ix2 p k := funext fun a => Fin.ext (by
    match a with
    | ⟨0, _⟩ => exact Read.lhs_main_v11_0 _ _
    | ⟨1, _⟩ => exact (Read.lhs_main_v11_1 _ _).trans hk)
  have er : dot_S50000x128_S128x128_S50000x128_1_0_0_1_n_n.rhsIdx (ix2 p q) ((ValueIdx.contrEquiv1 dot_S50000x128_S128x128_S50000x128_1_0_0_1_n_n 128 rfl rfl).symm k) = ix2 k q := funext fun a => Fin.ext (by
    match a with
    | ⟨0, _⟩ => exact (Read.rhs_main_v11_0 _ _).trans hk
    | ⟨1, _⟩ => exact Read.rhs_main_v11_1 _ _)
  rw [el, er]

/-- A one-row matrix broadcast over the 50000 rows reads, at (p, q), the row's entry q. -/
theorem rows_apply (brow : FVec Ideal S1x128 .f32) (p : Fin 50000) (q : Fin 128) :
    broadcastInDim S50000x128 ![0, 1] bcast_S1x128_S50000x128_0_1 brow (ix2 p q) = brow (ix2 (0 : Fin 1) q) :=
  broadcastInDim_apply _ bcast_S1x128_S50000x128_0_1 brow (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The host's product plus the bias row broadcast over the rows is the dense layer. -/
theorem layer_eq (h : FVec Ideal S50000x128 .f32) (wt : FVec Ideal S128x128 .f32) (brow : FVec Ideal S1x128 .f32) :
    addf (Host.dotGeneral dot_S50000x128_S128x128_S50000x128_1_0_0_1_n_n none h wt) (broadcastInDim S50000x128 ![0, 1] bcast_S1x128_S50000x128_0_1 brow)
      = lin h wt brow := by
  funext j
  obtain ⟨p, q, rfl⟩ : ∃ (p : Fin 50000) (q : Fin 128), j = ix2 p q := ⟨j 0, j 1, eq_ix2 j⟩
  rw [lin_apply, addf_apply, dot_apply, rows_apply]

/-- The maximum with the zero constant broadcast everywhere is the rectifier. -/
theorem relu_eq (x : FVec Ideal S50000x128 .f32) :
    maximumf x (broadcastInDim S50000x128 ![] bcast_S_S50000x128 (constant (F := Ideal) S_ .f32 0x00000000#32)) = relu x := by
  funext j
  rw [relu_apply, maximumf_apply,
    broadcastInDim_apply _ bcast_S_S50000x128 (constant (F := Ideal) S_ .f32 0x00000000#32) j ix0 (fun a => a.elim0),
    constant_apply, Ideal.ofBits_zero_f32]

/-! ## The whole reference -/

/-- The term the reference's run ends at is the layer of the aggregate of the rectified layer of the aggregate. -/
theorem result_eq (a0 : FVec Ideal S50000x128 .f32) (a1 a2 : IVec S800000 32)
    (a3 : FVec Ideal S128x128 .f32) (a4 : FVec Ideal S128 .f32)
    (a5 : FVec Ideal S128x128 .f32) (a6 : FVec Ideal S128 .f32) :
    addf (F := Ideal) (Host.dotGeneral (F := Ideal) dot_S50000x128_S128x128_S50000x128_1_0_0_1_n_n none (agg (F := Ideal) (maximumf (F := Ideal) (addf (F := Ideal) (Host.dotGeneral (F := Ideal) dot_S50000x128_S128x128_S50000x128_1_0_0_1_n_n none (agg (F := Ideal) a0 a1 a2) (wT (F := Ideal) a3)) (broadcastInDim S50000x128 ![0, 1] bcast_S1x128_S50000x128_0_1 (biasRow (F := Ideal) a4))) (broadcastInDim S50000x128 ![] bcast_S_S50000x128 (constant (F := Ideal) S_ .f32 0x00000000#32))) a1 a2) (wT (F := Ideal) a5)) (broadcastInDim S50000x128 ![0, 1] bcast_S1x128_S50000x128_0_1 (biasRow (F := Ideal) a6))
      = lin (agg (F := Ideal) (relu (lin (agg (F := Ideal) a0 a1 a2) (wT (F := Ideal) a3) (biasRow (F := Ideal) a4))) a1 a2) (wT (F := Ideal) a5) (biasRow (F := Ideal) a6) := by
  rw [layer_eq, layer_eq, relu_eq]

end Cert.ReferenceIdeal.RefValue

end
-- ==== Proof.lean ====
/-
  The kernel program and its reference compute the same function on the extended reals.

  Both programs are two rounds of "sum the neighbours' feature rows along the edges, then apply a dense layer", with a
  rectifier after the first round. The kernel program does each dense layer in a launch of a Pallas kernel over five
  blocks of 10000 rows (bf16 operands, an f32 accumulator: on the extended reals the changes of format are the identity);
  the reference does it as one host matrix product plus a broadcast bias. The neighbour aggregation is the same pair of
  host operations (a gather, then a scatter-add from zero) in both programs and is carried through as one function that is
  never opened. What is proved:
  * each launch leaves in its output array the dense layer (rectified, in the first launch) of the arrays it reads,
    because what a grid point writes is a block of rows of that layer and the five blocks tile the array;
  * the reference's result term is the same composition of layers, entry by entry: a matrix product at (p, q) is the sum
    over k of left (p, k) · right (k, q) in both, and both bias forms read the bias vector at q;
  * the two ways of turning the bias vector into a one-row matrix (a recast in one program, a broadcast in the other)
    agree.
  No law of arithmetic beyond reading the operations at an entry is needed — both sides are literally the same sums —,
  so the precondition that the inputs be finite is never used. Nothing was rewritten by the idealization, so there is
  nothing to preserve.
-/
import proofs.«115094_j75058848465162_1_alg».proof.Defs
import proofs.«115094_j75058848465162_1_alg».proof.Proof.Gen.Kernel
import proofs.«115094_j75058848465162_1_alg».proof.Proof.Gen.Kernel.Skeleton
import proofs.«115094_j75058848465162_1_alg».proof.Proof.Gen.Kernel.Launch
import proofs.«115094_j75058848465162_1_alg».proof.Proof.Gen.Kernel.Points
import proofs.«115094_j75058848465162_1_alg».proof.Proof.Gen.Kernel.Frame
import proofs.«115094_j75058848465162_1_alg».proof.Proof.Gen.KernelIdeal
import proofs.«115094_j75058848465162_1_alg».proof.Proof.Gen.KernelIdeal.Skeleton
import proofs.«115094_j75058848465162_1_alg».proof.Proof.Gen.KernelIdeal.Launch
import proofs.«115094_j75058848465162_1_alg».proof.Proof.Gen.KernelIdeal.Points
import proofs.«115094_j75058848465162_1_alg».proof.Proof.Gen.KernelIdeal.Frame
import proofs.«115094_j75058848465162_1_alg».proof.Proof.Gen.ReferenceIdeal
import proofs.«115094_j75058848465162_1_alg».proof.Proof.Gen.ReferenceIdeal.Run
import proofs.«115094_j75058848465162_1_alg».proof.Proof.Gen.ReferenceIdeal.Read
import proofs.«115094_j75058848465162_1_alg».proof.Proof.Gen.Pre_finite_inputs
import proofs.«115094_j75058848465162_1_alg».proof.Proof.KernelValue
import proofs.«115094_j75058848465162_1_alg».proof.Proof.RefValue
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx Cert.Dense

/-! ## The two programs' host operations are the same functions -/

/-- The neighbour aggregation is one function: the same gather and scatter-add in both programs. -/
theorem agg_eq (x : FVec Ideal Cert.KernelIdeal.S50000x128 .f32) (s d : IVec Cert.KernelIdeal.S800000 32) :
    Cert.KernelIdeal.HostSide.agg (F := Ideal) x s d = Cert.ReferenceIdeal.RefValue.agg (F := Ideal) x s d := rfl

/-- The transposed weight matrix is one function. -/
theorem wT_eq (w : FVec Ideal Cert.KernelIdeal.S128x128 .f32) :
    Cert.KernelIdeal.HostSide.wT (F := Ideal) w = Cert.ReferenceIdeal.RefValue.wT (F := Ideal) w := rfl

/-- A bias vector recast as a one-row matrix is the bias vector broadcast to a one-row matrix: both read, at (0, q),
    the vector's entry q. -/
theorem biasRow_eq (b : FVec Ideal Cert.KernelIdeal.S128 .f32) :
    Cert.KernelIdeal.HostSide.biasRow (F := Ideal) b = Cert.ReferenceIdeal.RefValue.biasRow (F := Ideal) b := by
  funext j
  obtain ⟨u, q, rfl⟩ : ∃ (u : Fin 1) (q : Fin 128), j = ix2 u q := ⟨j 0, j 1, eq_ix2 j⟩
  unfold Cert.KernelIdeal.HostSide.biasRow Cert.ReferenceIdeal.RefValue.biasRow
  rw [shapeCast_a_1a_apply]
  exact (broadcastInDim_apply _ Cert.ReferenceIdeal.Facts₀.bcast_S128_S1x128_1 b (ix2 u q) (ix1 q) (fun a => match a with
    | ⟨0, _⟩ => by show q.val = if (128 : Nat) = 1 then 0 else q.val; rw [if_neg (by decide)])).symm

/-- The kernel program's value is the reference's composition of layers. -/
theorem value_eq (a0 : FVec Ideal Cert.KernelIdeal.S50000x128 .f32) (a1 a2 : IVec Cert.KernelIdeal.S800000 32)
    (a3 : FVec Ideal Cert.KernelIdeal.S128x128 .f32) (a4 : FVec Ideal Cert.KernelIdeal.S128 .f32)
    (a5 : FVec Ideal Cert.KernelIdeal.S128x128 .f32) (a6 : FVec Ideal Cert.KernelIdeal.S128 .f32) :
    Cert.KernelIdeal.Result.value a0 a1 a2 a3 a4 a5 a6
      = lin (Cert.ReferenceIdeal.RefValue.agg (F := Ideal) (relu (lin (Cert.ReferenceIdeal.RefValue.agg (F := Ideal) a0 a1 a2)
          (Cert.ReferenceIdeal.RefValue.wT (F := Ideal) a3) (Cert.ReferenceIdeal.RefValue.biasRow (F := Ideal) a4))) a1 a2)
          (Cert.ReferenceIdeal.RefValue.wT (F := Ideal) a5) (Cert.ReferenceIdeal.RefValue.biasRow (F := Ideal) a6) := by
  unfold Cert.KernelIdeal.Result.value
  rw [agg_eq, agg_eq, wT_eq, wT_eq, biasRow_eq, biasRow_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result at the same function of the arguments. -/
theorem algebraic : Cert.algebraic_KernelIdeal_ReferenceIdeal := by
  intro m ρ m' ρ' _ hagree
  refine ⟨fun c => Cert.KernelIdeal.Result.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.RefValue.result_eq _ _ _ _ _ _ _).trans (value_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
